-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S_ : Shape := ⟨0, ![]⟩

class Facts : Prop where
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  h_S_ : 0 < S_.numel

variable [Facts]

def fn {F : FTy → Type} [FloatOps F] (main_arg0 : FVec F S8x256x64x64 .f32) : IVec S_ 1 :=
  let main_v0 : FVec F S8x256x64x64 .f32 := Host.absf main_arg0
  let main_cst : FVec F S_ .f32 := constant S_ .f32 0x7F800000#32
  let main_v1 : FVec F S8x256x64x64 .f32 := broadcastInDim S8x256x64x64 ![] bcast_S_S8x256x64x64 main_cst
  let main_v2 : IVec S8x256x64x64 1 := cmpf .olt main_v0 main_v1
  let main_c : IVec S_ 1 := constantI S_ 1 1#1
  let main_v3 : IVec S_ 1 := (fun x v => Host.reduce IntOp.andi x v reducesTo_S8x256x64x64_S_d0_1_2_3 h_S_) main_v2 main_c
  main_v3
-- ==== Kernel.lean ====
abbrev S8x256x64x64 : Shape := ⟨4, ![8, 256, 64, 64]⟩
abbrev S8x256x4096 : Shape := ⟨3, ![8, 256, 4096]⟩
abbrev S8x4096x4096 : Shape := ⟨3, ![8, 4096, 4096]⟩
abbrev S1x256x1024 : Shape := ⟨3, ![1, 256, 1024]⟩
abbrev S1x256x4096 : Shape := ⟨3, ![1, 256, 4096]⟩
abbrev S1x1024x1024 : Shape := ⟨3, ![1, 1024, 1024]⟩
abbrev S256x1024 : Shape := ⟨2, ![256, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8x256x64x64, .f32⟩
  | .hbm, ⟨1, _⟩ => ⟨S8x256x4096, .f32⟩
  | .hbm, ⟨2, _⟩ => ⟨S8x4096x4096, .f32⟩
  | .local _ .vmem, ⟨0, _⟩ => ⟨S1x256x1024, .f32⟩
  | .local _ .vmem, ⟨1, _⟩ => ⟨S1x256x1024, .f32⟩
  | .local _ .vmem, ⟨2, _⟩ => ⟨S1x256x4096, .f32⟩
  | .local _ .vmem, ⟨3, _⟩ => ⟨S1x256x4096, .f32⟩
  | .local _ .vmem, ⟨4, _⟩ => ⟨S1x1024x1024, .f32⟩
  | .local _ .vmem, ⟨5, _⟩ => ⟨S1x1024x1024, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_mult1 (i : grid0.Coords) : BitVec 32 :=
  let arg2 : BitVec 32 := BitVec.ofNat 32 (i 2).val
  let c1024_i32 : BitVec 32 := 1024#32
  let v0 : BitVec 32 := Scalar.muli arg2 c1024_i32
  v0
def k0_off1 (i : grid0.Coords) : Fin 3 → Nat :=
  let c0_2 : Index := 0#32
  let c0_3 : Index := 0#32
  let arg2 : BitVec 32 := BitVec.ofNat 32 (i 2).val
  let c1024_i32 : BitVec 32 := 1024#32
  let v0 : BitVec 32 := Scalar.muli arg2 c1024_i32
  let v1 : BitVec 32 := v0
  let v4 : Index := Scalar.indexCast v1
  ![0, 0, v4.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  shapeCasts_S8x256x64x64_S8x256x4096 : S8x256x64x64.ShapeCasts S8x256x4096
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x1024_S1024 : S256x1024.Reduces [0] S1024
  shapeCasts_S1024_S1x1024 : S1024.ShapeCasts S1x1024
  transposes_S1x1024_p1_0_S1024x1 : S1x1024.Transposes [1, 0] S1024x1
  bitsLt_bf16_f32 : FTy.bits .bf16 < FTy.bits .f32
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S256x1024_S256x1024_S1024x1024_0_0_1_1_n_n_wf : DotDims.WF S256x1024 S256x1024 S1024x1024 [0] [0] [1] [1] [] []
  hrank0 : 0 < grid0.rank
  k0_mult1_dvd : ∀ i : grid0.Coords, 128 ∣ (k0_mult1 i).toNat
  k0_off1_inb : ∀ i : grid0.Coords, ∀ a, (k0_off1 i) a + S1x256x1024.size a ≤ S1x256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x256x4096.size a
  hwx0_0 : ∀ i : grid0.Coords, EltTy.bits .f32 = 32 ∨ (Rect.block (s := S8x256x4096) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x4096.size a ≤ S8x256x4096.size a
  hwx0_1 : ∀ i : grid0.Coords, EltTy.bits .f32 = 32 ∨ (Rect.block (s := S8x256x4096) S1x256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x4096x4096.size a
  hwx0_2 : ∀ i : grid0.Coords, EltTy.bits .f32 = 32 ∨ (Rect.block (s := S8x4096x4096) S1x1024x1024.size (cc0_transform_2 i) (hinb0_2 i)).WholeWords (EltTy.packing .f32)

variable [Facts₀]

def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256x64x64 : Shape := ⟨4, ![8, 256, 64, 64]⟩
abbrev S8x256x4096 : Shape := ⟨3, ![8, 256, 4096]⟩
abbrev S8x4096x256 : Shape := ⟨3, ![8, 4096, 256]⟩
abbrev S_ : Shape := ⟨0, ![]⟩
abbrev S8x4096 : Shape := ⟨2, ![8, 4096]⟩
abbrev S8x4096x4096 : Shape := ⟨3, ![8, 4096, 4096]⟩
abbrev S8x1x4096 : Shape := ⟨3, ![8, 1, 4096]⟩
abbrev S8x4096x1 : Shape := ⟨3, ![8, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x256x4096, .f32⟩
  | .hbm, ⟨2, _⟩ => ⟨S8x4096x256, .f32⟩
  | .hbm, ⟨3, _⟩ => ⟨S8x4096x256, .f32⟩
  | .hbm, ⟨4, _⟩ => ⟨S_, .f32⟩
  | .hbm, ⟨5, _⟩ => ⟨S8x4096, .f32⟩
  | .hbm, ⟨6, _⟩ => ⟨S8x4096x4096, .f32⟩
  | .hbm, ⟨7, _⟩ => ⟨S8x1x4096, .f32⟩
  | .hbm, ⟨8, _⟩ => ⟨S8x4096x1, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩

abbrev nD : Nat := 1
abbrev τ : Topo := Topo.v7x

variable {F : FTy → Type} [FloatOps F]

class Facts₀ : Prop where
  shapeCasts_S8x256x64x64_S8x256x4096 : S8x256x64x64.ShapeCasts S8x256x4096
  transposes_S8x256x4096_S8x4096x256_0_2_1 : S8x256x4096.Transposes [0, 2, 1] S8x4096x256
  reducesTo_S8x4096x256_S8x4096_d2 : S8x4096x256.ReducesTo [2] S8x4096
  h_S_ : 0 < S_.numel
  bcast_S8x4096_S8x1x4096_0_2 : S8x4096.BroadcastsInDim S8x1x4096 (![0, 2] : Fin 2 → Fin S8x1x4096.rank)
  bcast_S8x4096_S8x4096x1_0_1 : S8x4096.BroadcastsInDim S8x4096x1 (![0, 1] : Fin 2 → Fin S8x4096x1.rank)
  bcast_S8x1x4096_S8x4096x4096_0_1_2 : S8x1x4096.BroadcastsInDim S8x4096x4096 (![0, 1, 2] : Fin 3 → Fin S8x4096x4096.rank)
  bcast_S8x4096x1_S8x4096x4096_0_1_2 : S8x4096x1.BroadcastsInDim S8x4096x4096 (![0, 1, 2] : Fin 3 → Fin S8x4096x4096.rank)
  bcast_S_S8x4096x4096 : S_.BroadcastsInDim S8x4096x4096 (![] : Fin 0 → Fin S8x4096x4096.rank)
  dot_S8x4096x256_S8x4096x256_S8x4096x4096_2_2_1_1_0_0_wf : DotDims.WF S8x4096x256 S8x4096x256 S8x4096x4096 [2] [2] [1] [1] [0] [0]

variable [Facts₀]

def dot_S8x4096x256_S8x4096x256_S8x4096x4096_2_2_1_1_0_0 : DotDims S8x4096x256 S8x4096x256 S8x4096x4096 where
  lhsContracting := [2]
  rhsContracting := [2]
  lhsNonContracting := [1]
  rhsNonContracting := [1]
  lhsBatch := [0]
  rhsBatch := [0]
  wf := dot_S8x4096x256_S8x4096x256_S8x4096x4096_2_2_1_1_0_0_wf

class Facts : Prop extends Facts₀ where

variable [Facts]
-- ==== Proof.LibSharedFrame.lean ====
/-
  The frame run of a one-region pipeline program whose INPUT windows may window ONE array several times
  (a kernel handed one tensor through several `in_specs`, each reading a different block of it).

  When every window has an array of its own, each array is held whole at the full share and the pipeline's
  `arrays` is the buffers behind them, one for one. When two input windows sit on one array that buffer
  is ONE points-to, and the full share has to be dealt between the windows on it; how is the proof's to say
  (`hsplit`). Everything else is as for distinct arrays: no semaphore of the kernel's own, the region's
  invariant entered from the core's scoped rest and returned to it, the unscoped buffers that are no window's
  array bypassing the region and read back at the end. The conclusion is the library's `FramePost`: every
  window's array at `Dat.arrAt w N` (windows on one array end holding the same contents), every other
  unscoped buffer at its region-entry contents.

  `split_two` is the one fact about shares that is needed: a buffer whole at the full share is the same
  buffer held twice, at the two halves of the full share.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- A location held whole at the full share is held at its left half and at its right half, at the same
    contents: the two halves compose to the full share. -/
theorem split_two {ℓ : Loc nD τ sig} (f : Buf Val ℓ) :
    (ℓ ↦{fullShare} f : sProp 𝕄) ⊢ iprop((ℓ ↦{fullShare.left} f) ∗ ℓ ↦{fullShare.right} f) :=
  (pointsTo_share (PosShare.mem_left_op_right fullShare)).1

/-- The buffers behind the windows' arrays, listed without repetition: `arrBufs` as the list's `∗`-chain. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Unit) (Name := ℕ) (U := UR sig nD τ) (Lvl := ℕ) win c V : sProp 𝕄)
      = BI.bigSepL l fun b => ((c.tc : Thread nD τ).loc b) ↦{fullShare} V b := by
  unfold arrBufs; exact BI.bigSep_eq_bigSepL_of_eq l h hl _

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN for windows that may share arrays. As `θ_run_frame_track`, with the layout facts by name
    (the windows' arrays need not be distinct, so there is no bundle of them) and with `hsplit`: the buffers
    behind the arrays, each whole at the full share at the region-entry contents `V`, make the proof data's
    arrays at entry, each at the share the data give it. The invariant is entered from the scoped rest and
    returned to it. -/
theorem θ_run_frame_sharing
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by iintro H; isplitr; · iempintro
                       iexact H)
    (hin := fun c => (show _ ⊢ (scopedRest (cfg).spec c : sProp 𝕄) from by iintro ⟨-, H⟩; iexact H).trans (hin c))
    (hout := fun c => (hout c).trans (by iintro H; isplitr; · iempintro
                                         iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.FrameBits.lean ====
/-
  The frame run of the pairwise-distance kernel: every weakly fair execution of @main terminates, nothing faults,
  the input tensor ends unchanged, and the result array ends at what the pipeline's write-backs leave in it.

  @main reshapes the input [8,256,64,64] to [8,256,4096] and hands that ONE array to the kernel twice: window 0 reads
  the (256 x 1024) slab of batch b and row tile i, window 1 the whole (256 x 4096) slab of batch b, and the body cuts
  the column tile j out of window 1's staging buffer at the offset 1024*j. The two input windows sit on one buffer, so
  the full share of that buffer is dealt between them: its left half to window 0, its right half to window 1. The
  output window is written back at every grid point.

  The body is run symbolically on whole staging buffers: it loads the row slab, loads the column tile at the dynamic
  offset, loads (and ignores) the output buffer, and stores ONE value over the whole output buffer, the payload of
  the two loaded slabs.
-/
import proofs.«171839_j14499809591877_2_alg».proof.Proof.Gen.Kernel.Launch
import proofs.«171839_j14499809591877_2_alg».proof.Proof.Gen.Kernel.Skeleton
import proofs.«171839_j14499809591877_2_alg».proof.Proof.Gen.Kernel.Points
import proofs.«171839_j14499809591877_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Shared

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the one reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its result only: the region finds the input tensor as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole row slab. -/
abbrev rRow : Rect S1x256x1024 := Rect.unit (s := S1x256x1024) ![0, 0, 0] S1x256x1024.size inb_S1x256x1024_S1x256x1024_0_0_0
/-- The column tile of grid point `i`: 1024 columns of the batch's slab from the offset the body computes. -/
abbrev rCol (i : grid0.Coords) : Rect S1x256x4096 := Rect.unit (s := S1x256x4096) (k0_off1 i) S1x256x1024.size (k0_off1_inb i)
/-- The whole output tile. -/
abbrev rOut : Rect S1x1024x1024 := Rect.unit (s := S1x1024x1024) ![0, 0, 0] S1x1024x1024.size inb_S1x1024x1024_S1x1024x1024_0_0_0

/-- What the body leaves in the output window's buffer at grid point `i`, from the two input blocks: its one store. -/
def outTile (i : grid0.Coords) (x0 : Vec F S1x256x1024 .f32) (x1 : Vec F S1x256x4096 .f32) : Vec F S1x1024x1024 .f32 :=
  View.canon [⟨rOut, k0_pay1 (View.ld x0 rRow) (View.ld x1 (rCol i))⟩]

/-- The one store covers the buffer. -/
theorem coverOut (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The body on whole staging buffers, the inputs' at contents `x0`, `x1` and the output's at anything, runs to the
    continuation holding the inputs' as they were and the output's at `outTile`. -/
theorem sound_kernel (c : Dev nD) (E : Set ℕ) (i : grid0.Coords) (arg3 : Memref sig .tc .vmem S1x256x1024 .f32) (harg3 : arg3.IsWhole) (arg4 : Memref sig .tc .vmem S1x256x4096 .f32) (harg4 : arg4.IsWhole) (arg5 : Memref sig .tc .vmem S1x1024x1024 .f32) (harg5 : arg5.IsWhole)
    (x0 : Vec F S1x256x1024 .f32) (x1 : Vec F S1x256x4096 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outTile i x0 x1)) -∗ K ⟨⟩))
      ⊢ wp frame (wpE (defs₀ (F := F)) Variants.none c none) E (cc0__cdist_kernel i arg3 harg3 arg4 harg4 arg5 harg5) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data of the pipeline on core `c`: the arrays as the region finds them; after the body at point `t` each
    input's buffer at its block and the output's at `outTile` of the two input blocks; the invariant the core's scoped
    buffers that are no staging buffer; nothing owed. The two input windows read ONE array: window 0 holds it at the left
    half of the full share, window 1 at the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outTile (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The one array dealt between its two windows -/

/-- The buffers behind the windows' arrays are the reshaped input and the result, each once. The reshaped input, whole at
    the full share, is held at the two halves of the full share, one for each window that reads it. -/
theorem deal (c : Dev nD) :
    (Pipeline.arrBufs spec0 c (V m c) : sProp 𝕄) ⊢ (dats m 0 c).arrays ((dats m 0 c).arrAt · 0) := by
  rw [Pipeline.arrBufs_eq_of_list spec0 c (V m c) [main_v0, main_v1] (by decide) (by decide)]
  unfold Dat.arrays
  rw [bigSep_W0]
  rw [(arr_whole0 0).set_eq_univ, (arr_whole0 2).set_eq_univ,
    show (dats m 0 c).share 0 = fullShare.left from rfl, show (dats m 0 c).share 1 = fullShare.right from rfl,
    show (dats m 0 c).share 2 = fullShare from rfl]
  change iprop((((c.tc : Thread nD τ).loc main_v0) ↦{fullShare} V m c main_v0) ∗ (((c.tc : Thread nD τ).loc main_v1) ↦{fullShare} V m c main_v1)) ⊢ _
  refine (sep_mono_left (Pipeline.split_two _)).trans ?_
  iintro ⟨⟨Hl, Hr⟩, H1⟩
  isplitl [Hl]; · iexact Hl
  isplitl [Hr]; · iexact Hr
  iexact H1

/-! ## The run and the frame -/

set_option backward.isDefEq.respectTransparency.types false in
/-- Every weakly fair execution of @main terminates, and every final state has every array of the pipeline at what the
    write-backs leave in it and every other unscoped buffer as the region found it. -/
theorem run_main : θ_run defs (onTc (τ := τ) (main (F := F))) (s₀ m ρ) (Pipeline.FramePost cfgs (dats m) 0 (V m)) :=
  Pipeline.θ_run_frame_sharing cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := deal m)
    (hin := fun _ => .rfl) (hout := fun _ => .rfl)

/-- The input tensor is unscoped and no window's array: it bypasses the region and ends as the region found it, which is
    as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 rfl (by decide))).trans (V_main_arg0 m c)

/-- After the run the result array is what the write-backs of all the points leave in it. -/
theorem post_result (r : PUnit × MemSt nD τ sig (Elt F)) (h : Pipeline.FramePost cfgs (dats m) 0 (V m) r) (c : Dev nD) :
    r.2.mem ((c : Thread nD τ).loc main_v1) = (dats m 0 c).arrAt 2 cfg0.N :=
  (h c).1 2

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_main_arg0 m r h c) (run_main m ρ)

end Cert.Kernel.Shared

end
-- ==== Proof.FrameIdeal.lean ====
/-
  The frame run of the pairwise-distance kernel: every weakly fair execution of @main terminates, nothing faults,
  the input tensor ends unchanged, and the result array ends at what the pipeline's write-backs leave in it.

  @main reshapes the input [8,256,64,64] to [8,256,4096] and hands that ONE array to the kernel twice: window 0 reads
  the (256 x 1024) slab of batch b and row tile i, window 1 the whole (256 x 4096) slab of batch b, and the body cuts
  the column tile j out of window 1's staging buffer at the offset 1024*j. The two input windows sit on one buffer, so
  the full share of that buffer is dealt between them: its left half to window 0, its right half to window 1. The
  output window is written back at every grid point.

  The body is run symbolically on whole staging buffers: it loads the row slab, loads the column tile at the dynamic
  offset, loads (and ignores) the output buffer, and stores ONE value over the whole output buffer, the payload of
  the two loaded slabs.
-/
import proofs.«171839_j14499809591877_2_alg».proof.Proof.Gen.KernelIdeal.Launch
import proofs.«171839_j14499809591877_2_alg».proof.Proof.Gen.KernelIdeal.Skeleton
import proofs.«171839_j14499809591877_2_alg».proof.Proof.Gen.KernelIdeal.Points
import proofs.«171839_j14499809591877_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Shared

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the one reshape. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshape and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes its result only: the region finds the input tensor as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not, for any proof data
    whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole row slab. -/
abbrev rRow : Rect S1x256x1024 := Rect.unit (s := S1x256x1024) ![0, 0, 0] S1x256x1024.size inb_S1x256x1024_S1x256x1024_0_0_0
/-- The column tile of grid point `i`: 1024 columns of the batch's slab from the offset the body computes. -/
abbrev rCol (i : grid0.Coords) : Rect S1x256x4096 := Rect.unit (s := S1x256x4096) (k0_off1 i) S1x256x1024.size (k0_off1_inb i)
/-- The whole output tile. -/
abbrev rOut : Rect S1x1024x1024 := Rect.unit (s := S1x1024x1024) ![0, 0, 0] S1x1024x1024.size inb_S1x1024x1024_S1x1024x1024_0_0_0

/-- What the body leaves in the output window's buffer at grid point `i`, from the two input blocks: its one store. -/
def outTile (i : grid0.Coords) (x0 : Vec F S1x256x1024 .f32) (x1 : Vec F S1x256x4096 .f32) : Vec F S1x1024x1024 .f32 :=
  View.canon [⟨rOut, k0_pay1 (View.ld x0 rRow) (View.ld x1 (rCol i))⟩]

/-- The one store covers the buffer. -/
theorem coverOut (p0 : Vec F S1x1024x1024 .f32) (y : S1x1024x1024.Idx) :
    ∃ pc ∈ ([⟨rOut, p0⟩] : List (View.Piece (Elt F) S1x1024x1024 .f32)), y ∈ pc.1.set :=
  View.cover_of_tiled [⟨rOut, p0⟩] S1x1024x1024.size (by rfl) y

/-! ## The body's triple -/

set_option maxHeartbeats 1000000 in
/-- The body on whole staging buffers, the inputs' at contents `x0`, `x1` and the output's at anything, runs to the
    continuation holding the inputs' as they were and the output's at `outTile`. -/
theorem sound_kernel (c : Dev nD) (E : Set ℕ) (i : grid0.Coords) (arg3 : Memref sig .tc .vmem S1x256x1024 .f32) (harg3 : arg3.IsWhole) (arg4 : Memref sig .tc .vmem S1x256x4096 .f32) (harg4 : arg4.IsWhole) (arg5 : Memref sig .tc .vmem S1x1024x1024 .f32) (harg5 : arg5.IsWhole)
    (x0 : Vec F S1x256x1024 .f32) (x1 : Vec F S1x256x4096 .f32) (K : PUnit → sProp 𝕄) :
    iprop(owns (c : Thread nD τ) arg3 fullShare x0 ∗ owns (c : Thread nD τ) arg4 fullShare x1 ∗ (∃ d, owns (c : Thread nD τ) arg5 fullShare d)
        ∗ (iprop(owns (c : Thread nD τ) arg3 fullShare x0 ∗ owns (c : Thread nD τ) arg4 fullShare x1 ∗ owns (c : Thread nD τ) arg5 fullShare (outTile i x0 x1)) -∗ K ⟨⟩))
      ⊢ wp frame (wpE (defs₀ (F := F)) Variants.none c none) E (cc0__cdist_kernel i arg3 harg3 arg4 harg4 arg5 harg5) K := by
  simp only [cc0__cdist_kernel_eq_skeleton]; unfold cc0__cdist_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (coverOut _)

/-! ## The pipeline's proof data -/

/-- The proof data of the pipeline on core `c`: the arrays as the region finds them; after the body at point `t` each
    input's buffer at its block and the output's at `outTile` of the two input blocks; the invariant the core's scoped
    buffers that are no staging buffer; nothing owed. The two input windows read ONE array: window 0 holds it at the left
    half of the full share, window 1 at the right half. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outTile (grid0.coords t) (iblk m c 0 t) (iblk m c 1 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) :
    (dats m 0 c).after 2 t = outTile (grid0.coords t) (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so `sound_kernel` applies; the invariant and what the
    core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The one array dealt between its two windows -/

/-- The buffers behind the windows' arrays are the reshaped input and the result, each once. The reshaped input, whole at
    the full share, is held at the two halves of the full share, one for each window that reads it. -/
theorem deal (c : Dev nD) :
    (Pipeline.arrBufs spec0 c (V m c) : sProp 𝕄) ⊢ (dats m 0 c).arrays ((dats m 0 c).arrAt · 0) := by
  rw [Pipeline.arrBufs_eq_of_list spec0 c (V m c) [main_v0, main_v1] (by decide) (by decide)]
  unfold Dat.arrays
  rw [bigSep_W0]
  rw [(arr_whole0 0).set_eq_univ, (arr_whole0 2).set_eq_univ,
    show (dats m 0 c).share 0 = fullShare.left from rfl, show (dats m 0 c).share 1 = fullShare.right from rfl,
    show (dats m 0 c).share 2 = fullShare from rfl]
  change iprop((((c.tc : Thread nD τ).loc main_v0) ↦{fullShare} V m c main_v0) ∗ (((c.tc : Thread nD τ).loc main_v1) ↦{fullShare} V m c main_v1)) ⊢ _
  refine (sep_mono_left (Pipeline.split_two _)).trans ?_
  iintro ⟨⟨Hl, Hr⟩, H1⟩
  isplitl [Hl]; · iexact Hl
  isplitl [Hr]; · iexact Hr
  iexact H1

/-! ## The run and the frame -/

set_option backward.isDefEq.respectTransparency.types false in
/-- Every weakly fair execution of @main terminates, and every final state has every array of the pipeline at what the
    write-backs leave in it and every other unscoped buffer as the region found it. -/
theorem run_main : θ_run defs (onTc (τ := τ) (main (F := F))) (s₀ m ρ) (Pipeline.FramePost cfgs (dats m) 0 (V m)) :=
  Pipeline.θ_run_frame_sharing cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := deal m)
    (hin := fun _ => .rfl) (hout := fun _ => .rfl)

/-- The input tensor is unscoped and no window's array: it bypasses the region and ends as the region found it, which is
    as launched. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 rfl (by decide))).trans (V_main_arg0 m c)

/-- After the run the result array is what the write-backs of all the points leave in it. -/
theorem post_result (r : PUnit × MemSt nD τ sig (Elt F)) (h : Pipeline.FramePost cfgs (dats m) 0 (V m) r) (c : Dev nD) :
    r.2.mem ((c : Thread nD τ).loc main_v1) = (dats m 0 c).arrAt 2 cfg0.N :=
  (h c).1 2

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_main_arg0 m r h c) (run_main m ρ)

end Cert.KernelIdeal.Shared

end
-- ==== Proof.LibTransposedLhsDot.lean ====
/-
  The product of the transpose of a K×M matrix with a K×N matrix, read at one entry.

  Both operands are contracted along their FIRST axis, so entry (p, q) of the M×N result is the sum over k of
  left (k, p) times right (k, q). Stated for the dimension record `dims K M N` below at the exact instance, for the
  accelerator's product into the zero accumulator; general in the three extents. A printed record with contracting
  axes [0] and [0], free axes [1] and [1] and no batch axes is this record (the two differ only in a proof field).
  With N = 1 and a constant right operand this is a column of weighted column sums.
-/
import Idealize.ShloMosaic.Lib.ValueIdx
import Idealize.ShloMosaic.PureOps.Ideal.Laws

noncomputable section

open scoped BigOperators

namespace Cert.LibTransposedLhsDot

open Idealize.ShloMosaic Idealize.ShloMosaic.ValueIdx

/-- Contract axis 0 of a K×M matrix with axis 0 of a K×N matrix. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : ℕ}

/-- The left operand's index for result entry (p, q) and contraction position k is (k, p). -/
theorem lhsIdx_eq (p : Fin M) (q : Fin N) (k : Fin K) :
    (dims K M N).lhsIdx (ix2 p q) ((contrEquiv1 (dims K M N) K rfl rfl).symm k) = ix2 k p := by
  have hk := contrEquiv1_symm_val (dims K M N) K rfl rfl k
  funext a; apply Fin.ext
  match a with
  | ⟨0, _⟩ => exact ((dims K M N).lhsIdx_val_of_single rfl _ _).trans hk
  | ⟨1, _⟩ =>
    show ((dims K M N).lhsIdx (ix2 p q) _ 1).val = p.val
    unfold DotDims.lhsIdx
    rw [dif_neg (show ¬(1 : Fin 2) ∈ (dims K M N).lhsBatch from List.not_mem_nil),
      dif_pos (show (1 : Fin 2) ∈ (dims K M N).lhsNonContracting from List.mem_singleton.mpr rfl)]
    rfl

/-- The right operand's index for result entry (p, q) and contraction position k is (k, q). -/
theorem rhsIdx_eq (p : Fin M) (q : Fin N) (k : Fin K) :
    (dims K M N).rhsIdx (ix2 p q) ((contrEquiv1 (dims K M N) K rfl rfl).symm k) = ix2 k q := by
  have hk := contrEquiv1_symm_val (dims K M N) K rfl rfl k
  funext a; apply Fin.ext
  match a with
  | ⟨0, _⟩ => exact ((dims K M N).rhsIdx_val_of_single rfl _ _).trans hk
  | ⟨1, _⟩ =>
    show ((dims K M N).rhsIdx (ix2 p q) _ 1).val = q.val
    unfold DotDims.rhsIdx
    rw [dif_neg (show ¬(1 : Fin 2) ∈ (dims K M N).rhsBatch from List.not_mem_nil),
      dif_pos (show (1 : Fin 2) ∈ (dims K M N).rhsNonContracting from List.mem_singleton.mpr rfl)]
    rfl

/-- The accelerator's product into the zero accumulator: entry (p, q) is the sum over k of
    left (k, p) · right (k, q). -/
theorem matmul_zero_apply {φ₁ φ₂ : FTy} (prec : Option ContractPrecision)
    (l : FVec Ideal ⟨2, ![K, M]⟩ φ₁) (r : FVec Ideal ⟨2, ![K, N]⟩ φ₂) (p : Fin M) (q : Fin N) :
    matmul (dims K M N) prec l r (constant (F := Ideal) ⟨2, ![M, N]⟩ .f32 0x00000000#32) (ix2 p q)
      = ∑ k : Fin K, l (ix2 k p) * r (ix2 k q) := by
  refine (Ideal.matmul_constant_zero_apply (dims K M N) prec l r (ix2 p q)).trans ?_
  rw [← Equiv.sum_comp (contrEquiv1 (dims K M N) K rfl rfl).symm]
  refine Finset.sum_congr rfl fun k _ => ?_
  rw [lhsIdx_eq, rhsIdx_eq]

end Cert.LibTransposedLhsDot

end
-- ==== Proof.LibSublaneSum.lean ====
/-
  A column sum of a matrix, read by coordinates.

  A float sum of an `[a, b]` array over its first axis, started from the zero pattern, is at column `c` the sum over the
  row coordinate `k` of the entry `(k, c)`: on the extended reals a sum has no order, and the zero it starts from adds
  nothing. Stated for any extents; the companion of the lane sum (the sum over the second axis).
-/
import Idealize.ShloMosaic.Lib.Pipeline.Value
import Idealize.ShloMosaic.Lib.ValueIdx
import Idealize.ShloMosaic.PureOps.Ideal.Laws

namespace Cert.SublaneSum

open Idealize.ShloMosaic Idealize.ShloMosaic.ValueIdx

/-- A float sum of an `[a, b]` array over axis 0 from the zero pattern, read at column `c`, is the sum over the row
    coordinate `k` of the entry `(k, c)`. -/
theorem sublaneSum_apply {a b : ℕ} (src : FVec Ideal ⟨2, ![a, b]⟩ .f32)
    (h : (⟨2, ![a, b]⟩ : Shape).Reduces [0] ⟨1, ![b]⟩) (hφ : FKind.Formats .f32)
    (hacc : (0x00000000#32 : BitVec 32) = FKind.add.neutral .f32 hφ) (c : Fin b) :
    multiReduction .add [0] ⟨1, ![b]⟩ src 0x00000000#32 h hφ hacc (ix1 c) = ∑ k : Fin a, src (ix2 k c) := by
  refine (Ideal.multiReduction_add_single src _ h hφ hacc (ix1 c)).trans ?_
  refine Finset.sum_congr rfl fun k _ => congrArg src ?_
  funext d
  apply Fin.ext
  match d with
  | ⟨0, _⟩ => rfl
  | ⟨1, _⟩ => rfl

end Cert.SublaneSum
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.TileValue.lean ====
/-
  One output tile of the pairwise-distance kernel, read at an entry.

  The body holds a row slab `x0` and a column slab `x1`, each 256 coordinates by 1024 points. Entry (p, q) of the tile it
  stores is: the product of the transpose of the row slab scaled by −2 with the column slab, at (p, q) — the sum over
  the coordinate k of (x0(k,p)·(−2))·x1(k,q) —, plus the squared length of row point p (a column sum of squares,
  transposed into a column and spread along the rows), plus the squared length of column point q (a column sum of squares
  spread down the columns). The narrowing of the product's operands to bf16 is the identity on exact numbers.
-/
import proofs.«171839_j14499809591877_2_alg».proof.Proof.Gen.KernelIdeal.Skeleton
import proofs.«171839_j14499809591877_2_alg».proof.Proof.LibTransposedLhsDot
import proofs.«171839_j14499809591877_2_alg».proof.Proof.LibSublaneSum
import proofs.«171839_j14499809591877_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-- A slab with its leading unit axis dropped, at (k, p), is the slab at (0, k, p). -/
theorem squeeze_apply (x : Vec Ideal S1x256x1024 .f32) (k : Fin 256) (p : Fin 1024) :
    (shapeCast S256x1024 x shapeCasts_S1x256x1024_S256x1024 : FVec Ideal S256x1024 .f32) (ix2 k p) = x (ix3 (0 : Fin 1) k p) :=
  shapeCast_1ab_ab_apply x _ k p

/-- A column sum of squares from the zero pattern, at column `p`: the sum over the row coordinate. -/
theorem colSum_apply (v : FVec Ideal S256x1024 .f32) (p : Fin 1024) :
    multiReduction .add [0] S1024 (mulf v v) 0x00000000#32 reduces_S256x1024_S1024 (.inl rfl) rfl (ix1 p)
      = ∑ k : Fin 256, v (ix2 k p) * v (ix2 k p) :=
  (Cert.SublaneSum.sublaneSum_apply (mulf v v) reduces_S256x1024_S1024 (.inl rfl) rfl p).trans rfl

/-- The squared lengths of the slab's points, as a column spread along the rows: entry (p, q) is the sum over k of the
    square of (k, p). -/
theorem rowNorm_apply (v : FVec Ideal S256x1024 .f32) (p q : Fin 1024) :
    broadcastTo S1024x1024 (transpose S1024x1 [1, 0] (shapeCast S1x1024 (multiReduction .add [0] S1024 (mulf v v) 0x00000000#32 reduces_S256x1024_S1024 (.inl rfl) rfl) shapeCasts_S1024_S1x1024) transposes_S1x1024_p1_0_S1024x1) broadcasts_S1024x1_S1024x1024 (ix2 p q)
      = ∑ k : Fin 256, v (ix2 k p) * v (ix2 k p) := by
  rw [Cert.Keepdims.broadcastTo_a1_ab_apply, transpose_ix2_apply, shapeCast_a_1a_apply]
  exact colSum_apply v p

/-- The squared lengths of the slab's points, as a row spread down the columns: entry (p, q) is the sum over k of the
    square of (k, q). -/
theorem colNorm_apply (v : FVec Ideal S256x1024 .f32) (p q : Fin 1024) :
    broadcastTo S1024x1024 (shapeCast S1x1024 (multiReduction .add [0] S1024 (mulf v v) 0x00000000#32 reduces_S256x1024_S1024 (.inl rfl) rfl) shapeCasts_S1024_S1x1024) broadcasts_S1x1024_S1024x1024 (ix2 p q)
      = ∑ k : Fin 256, v (ix2 k q) * v (ix2 k q) := by
  rw [broadcastTo_1b_ab_apply, shapeCast_a_1a_apply]
  exact colSum_apply v q

/-- The printed product contracts the first axis of both operands. -/
theorem dot_eq : dot_S256x1024_S256x1024_S1024x1024_0_0_1_1_n_n = Cert.LibTransposedLhsDot.dims 256 1024 1024 := rfl

/-- The scaled product: entry (p, q) is the sum over k of (u(k,p)·s)·w(k,q). -/
theorem gram_apply (u w : FVec Ideal S256x1024 .f32) (s : Ideal .f32) (p q : Fin 1024) :
    matmul dot_S256x1024_S256x1024_S1024x1024_0_0_1_1_n_n none
        (truncf .bf16 (mulf u (broadcast S256x1024 s)) bitsLt_bf16_f32) (truncf .bf16 w bitsLt_bf16_f32)
        (constant (F := Ideal) S1024x1024 .f32 0x00000000#32) (ix2 p q)
      = ∑ k : Fin 256, (u (ix2 k p) * s) * w (ix2 k q) := by
  rw [dot_eq]
  exact (Cert.LibTransposedLhsDot.matmul_zero_apply none _ _ p q).trans rfl

/-- THE TILE at an entry. -/
theorem pay_apply (x0 x1 : Vec Ideal S1x256x1024 .f32) (p q : Fin 1024) :
    k0_pay1 (F := Ideal) x0 x1 (ix3 (0 : Fin 1) p q)
      = ((∑ k : Fin 256, (x0 (ix3 (0 : Fin 1) k p) * Ideal.ofBits .f32 0xC0000000#32) * x1 (ix3 (0 : Fin 1) k q))
          + ∑ k : Fin 256, x0 (ix3 (0 : Fin 1) k p) * x0 (ix3 (0 : Fin 1) k p))
        + ∑ k : Fin 256, x1 (ix3 (0 : Fin 1) k q) * x1 (ix3 (0 : Fin 1) k q) := by
  unfold k0_pay1
  dsimp only
  refine (shapeCast_ab_1ab_apply _ _ (0 : Fin 1) p q).trans ?_
  rw [addf_apply, addf_apply, gram_apply, rowNorm_apply, colNorm_apply]
  simp only [squeeze_apply]
  rfl

end Cert.KernelIdeal.Tile

end
-- ==== Proof.LibRealEntries.lean ====
/-
  Real-valued entries on the extended reals.

  At the exact instance a float is an extended real, and the laws that join two arrangements of one computation
  (distributing a factor over a difference, regrouping a mixed sum) hold for real numbers but fail at the infinities.
  This file says when an extended real IS a real number (`IsReal`), that the property is kept by sums, differences,
  products, maxima, choices, finite sums, division by a nonzero real and the reciprocal square root of a positive real or
  of anything at least one, that a finite sum of reals is the real sum, and the one algebraic identity of batch
  normalisation: scaling then shifting by a precomputed pair equals centring, scaling and shifting.
-/
import Idealize.ShloMosaic.PureOps.Ideal

namespace RealEntries

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

theorem IsReal.ne_top {x : EReal} (h : IsReal x) : x ≠ ⊤ := by obtain ⟨r, rfl⟩ := h; exact EReal.coe_ne_top r
theorem IsReal.ne_bot {x : EReal} (h : IsReal x) : x ≠ ⊥ := by obtain ⟨r, rfl⟩ := h; exact EReal.coe_ne_bot r

/-- An extended real that is neither infinity is a real number. -/
theorem isReal_of_ne {x : EReal} (ht : x ≠ ⊤) (hb : x ≠ ⊥) : IsReal x := by
  induction x using EReal.rec with
  | bot => exact absurd rfl hb
  | top => exact absurd rfl ht
  | coe r => exact ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases max_choice x y with h | h <;> rw [h] <;> assumption
theorem IsReal.ite {p : Prop} [Decidable p] {x y : EReal} (hx : IsReal x) (hy : IsReal y) : IsReal (if p then x else y) := by
  split <;> assumption

/-- A finite sum of real numbers is a real number. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The extended-real sum of real numbers is their real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division by a nonzero real keeps a real number real. -/
theorem IsReal.div_coe {x : EReal} (hx : IsReal x) {y : ℝ} (hy : y ≠ 0) : IsReal (Ideal.div x (y : EReal)) := by
  rw [Ideal.div_coe hy]; exact hx.mul (isReal_coe _)

/-- The reciprocal square root of a positive real is a real number. -/
theorem isReal_rsqrt_of_pos {r : ℝ} (h : 0 < r) : IsReal (Ideal.rsqrt (r : EReal)) := by
  rw [Ideal.rsqrt_coe, if_neg (not_lt.mpr h.le), if_neg h.ne']; exact isReal_coe _

/-- The reciprocal square root of anything at least one — plus infinity included — is a real number. -/
theorem isReal_rsqrt_of_one_le {x : EReal} (h : 1 ≤ x) : IsReal (Ideal.rsqrt x) := by
  induction x using EReal.rec with
  | bot => exact absurd (le_bot_iff.mp h) (EReal.coe_ne_bot 1)
  | top => rw [Ideal.rsqrt_top]; exact isReal_zero
  | coe r =>
    have hr : (1 : ℝ) ≤ r := by exact_mod_cast h
    exact isReal_rsqrt_of_pos (by linarith)

/-- Batch normalisation's two arrangements agree on real numbers: with `s = g·r`, `a·s + (b − m·s) = ((a − m)·r)·g + b`. -/
theorem bn_affine (a m r g b : ℝ) :
    (a : EReal) * ((g : EReal) * (r : EReal)) + ((b : EReal) - (m : EReal) * ((g : EReal) * (r : EReal)))
      = (((a : EReal) - (m : EReal)) * (r : EReal)) * (g : EReal) + (b : EReal) := by
  rw [← EReal.coe_mul, ← EReal.coe_mul, ← EReal.coe_mul, ← EReal.coe_sub, ← EReal.coe_add, ← EReal.coe_sub, ← EReal.coe_mul,
    ← EReal.coe_mul, ← EReal.coe_add]
  congr 1; ring

end RealEntries
-- ==== Proof.PairDist.lean ====
/-
  Pairwise squared distances, as one function of the point array.

  A batch holds 4096 points of dimension 256, stored coordinate-major: `y (b, k, n)` is coordinate `k` of point `n` of
  batch `b`. The squared distance of points `n` and `m` is  |y_n|² + |y_m|² − 2·⟨y_n, y_m⟩.  One arrangement scales one
  factor of every product of the inner sum by −2 and adds the two squared lengths after it; the other adds the two
  squared lengths (each a sum started from zero) and subtracts twice the inner sum. Over the real numbers they agree: a
  constant factor moves out of a finite sum. On the extended reals that step fails at the infinities, so the law is
  stated for arrays of real entries.
-/
import Idealize.ShloMosaic.PureOps.Ideal
import Idealize.ShloMosaic.PureOps.Ideal.Laws
import Idealize.ShloMosaic.Lib.ValueIdx
import proofs.«171839_j14499809591877_2_alg».proof.Proof.LibRealEntries

noncomputable section

open scoped BigOperators

namespace Cert.PairDist

open Idealize.ShloMosaic Idealize.ShloMosaic.ValueIdx RealEntries

/-- The pattern of `-2.0` denotes the real −2. -/
theorem ofBits_neg_two : Ideal.ofBits .f32 0xC0000000#32 = ((-2 : ℝ) : EReal) := by
  simp [Ideal.ofBits, Ideal.ieee, -EReal.coe_mul]; norm_num

/-- The pattern of `2.0` denotes the real 2. -/
theorem ofBits_two : Ideal.ofBits .f32 0x40000000#32 = ((2 : ℝ) : EReal) := by
  simp [Ideal.ofBits, Ideal.ieee, -EReal.coe_mul]; norm_num

variable (y : (⟨3, ![8, 256, 4096]⟩ : Shape).Idx → EReal)

/-- The squared length of point `n` of batch `b`. -/
def sqnorm (b : Fin 8) (n : Fin 4096) : EReal := ∑ k : Fin 256, y (ix3 b k n) * y (ix3 b k n)

/-- The inner product of points `n` and `m` of batch `b`. -/
def inner (b : Fin 8) (n m : Fin 4096) : EReal := ∑ k : Fin 256, y (ix3 b k n) * y (ix3 b k m)

/-- The squared distance with the factor −2 inside the inner sum, the squared lengths added after it. -/
def dist (b : Fin 8) (n m : Fin 4096) : EReal :=
  ((∑ k : Fin 256, (y (ix3 b k n) * Ideal.ofBits .f32 0xC0000000#32) * y (ix3 b k m)) + sqnorm y b n) + sqnorm y b m

/-- The squared distance as the two squared lengths, each a sum started from zero, less twice the inner product. -/
def distRef (b : Fin 8) (n m : Fin 4096) : EReal :=
  ((Ideal.ofBits .f32 0x00000000#32 + sqnorm y b m) + (Ideal.ofBits .f32 0x00000000#32 + sqnorm y b n))
    - Ideal.ofBits .f32 0x40000000#32 * inner y b n m

/-- For real entries the two arrangements are one number. -/
theorem dist_eq_distRef (hy : ∀ i, IsReal (y i)) (b : Fin 8) (n m : Fin 4096) : dist y b n m = distRef y b n m := by
  choose r hr using hy
  obtain rfl : y = fun i => (r i : EReal) := funext hr
  unfold dist distRef sqnorm inner
  rw [ofBits_neg_two, ofBits_two, Ideal.ofBits_zero_f32]
  simp only [← EReal.coe_mul, coe_sum, ← EReal.coe_add, zero_add, ← EReal.coe_sub]
  congr 1
  have h : ∑ k : Fin 256, r (ix3 b k n) * (-2) * r (ix3 b k m) = -2 * ∑ k : Fin 256, r (ix3 b k n) * r (ix3 b k m) := by
    rw [Finset.mul_sum]; exact Finset.sum_congr rfl fun k _ => by ring
  rw [h]; ring

end Cert.PairDist

end
-- ==== Proof.KernelValue.lean ====
/-
  The idealized kernel's result array, as one function of the reshaped input.

  Grid point (b, i, j) stores the 1024 x 1024 tile of the result at batch b, rows 1024·i …, columns 1024·j …. Its row slab
  is columns 1024·i … of batch b of the point array, its column slab the 1024 columns from offset 1024·j of the whole
  batch. So entry (p, q) of the tile is the squared distance of points 1024·i + p and 1024·j + q of batch b, in the
  arrangement with the factor −2 inside the inner sum; the 8·4·4 tiles cover the array, so the array ends holding that
  function at every index.
-/
import proofs.«171839_j14499809591877_2_alg».proof.Proof.FrameIdeal
import proofs.«171839_j14499809591877_2_alg».proof.Proof.TileValue
import proofs.«171839_j14499809591877_2_alg».proof.Proof.PairDist
import Idealize.ShloMosaic.Lib.Pipeline.Value
import Idealize.ShloMosaic.Lib.StableHlo.Run

set_option maxRecDepth 16384

noncomputable section

open scoped BigOperators

namespace Cert.KernelIdeal.Whole

open Cert.KernelIdeal Cert.KernelIdeal.Gen Cert.KernelIdeal.Shared Idealize.ShloMosaic Idealize.ShloMosaic.TcCoe Idealize.SL.Sem
open Idealize.ShloMosaic.ValueIdx Cert.PairDist
open Idealize.ShloMosaic.Pipeline (Dat)

variable (m : (ℓ : Loc nD τ sig) → Buf (Elt Ideal) ℓ) (ρ : Dev nD → PrngReg)

/-- The result array from the point array: entry (b, n, m) is the squared distance of points n and m of batch b. -/
def G (y : S8x256x4096.Idx → EReal) : S8x4096x4096.Idx → EReal := fun i => Cert.PairDist.dist y (i 0) (i 1) (i 2)

theorem G_apply (y : S8x256x4096.Idx → EReal) (b : Fin 8) (n k : Fin 4096) : G y (ix3 b n k) = Cert.PairDist.dist y b n k := rfl

/-- ONE ENTRY OF A TILE, over plain variables: `x0` is the row slab and `x1` the batch's whole slab of the point array
    `y`, the column tile is cut from `x1` at column offset 1024·tj. -/
theorem tile_entry (y : S8x256x4096.Idx → EReal) (x0 : Vec Ideal S1x256x1024 .f32) (x1 : Vec Ideal S1x256x4096 .f32)
    (off : Fin 3 → Nat) (inb : ∀ a, off a + S1x256x1024.size a ≤ S1x256x4096.size a) (tj : Nat) (hoff : off = ![0, 0, 1024 * tj])
    (b : Fin 8) (n k : Fin 4096) (p q : Fin 1024) (hk : k.val = 1024 * tj + q.val)
    (h0 : ∀ d : Fin 256, x0 (ix3 (0 : Fin 1) d p) = y (ix3 b d n))
    (h1 : ∀ (d : Fin 256) (e : Fin 4096), x1 (ix3 (0 : Fin 1) d e) = y (ix3 b d e)) :
    k0_pay1 (F := Ideal) x0 (View.ld x1 (Rect.unit (s := S1x256x4096) off S1x256x1024.size inb)) (ix3 (0 : Fin 1) p q) = Cert.PairDist.dist y b n k := by
  refine (Tile.pay_apply _ _ p q).trans ?_
  have hc : ∀ d : Fin 256, View.ld x1 (Rect.unit (s := S1x256x4096) off S1x256x1024.size inb) (ix3 (0 : Fin 1) d q) = y (ix3 b d k) := fun d => by
    show x1 ((Rect.unit (s := S1x256x4096) off S1x256x1024.size inb).emb (ix3 (0 : Fin 1) d q)) = _
    rw [← h1 d k]
    congr 1
    funext a; apply Fin.ext
    subst hoff
    match a with
    | ⟨0, _⟩ => rfl
    | ⟨1, _⟩ => show 0 + 1 * d.val = d.val; omega
    | ⟨2, _⟩ => show 1024 * tj + 1 * q.val = k.val; omega
  unfold Cert.PairDist.dist Cert.PairDist.sqnorm
  simp only [h0, hc]

/-! ## The index maps over the grid -/

theorem hz3 : (![0, 0, 0] : Fin 3 → Nat) = fun _ => 0 := funext fun a => by fin_cases a <;> rfl

/-- The printed index maps and the body's column offset, decided over the 128 grid points: the row slab moves with the
    output's batch and row tile, the batch slab with the output's batch, the column offset is 1024 times the output's
    column tile, and the output's block indices stay in their ranges. -/
theorem idx_facts : ∀ t : Fin cfg0.N,
    win0_0.index t (0 : Fin 3) = win0_2.index t (0 : Fin 3) ∧ win0_0.index t (1 : Fin 3) = 0
    ∧ win0_0.index t (2 : Fin 3) = win0_2.index t (1 : Fin 3)
    ∧ win0_1.index t (0 : Fin 3) = win0_2.index t (0 : Fin 3) ∧ win0_1.index t (1 : Fin 3) = 0
    ∧ win0_1.index t (2 : Fin 3) = 0
    ∧ k0_off1 (grid0.coords t) = ![0, 0, 1024 * win0_2.index t (2 : Fin 3)]
    ∧ win0_2.index t (0 : Fin 3) ≤ 7 ∧ win0_2.index t (1 : Fin 3) ≤ 3 ∧ win0_2.index t (2 : Fin 3) ≤ 3 :=
  (by decide +kernel : ∀ t : Fin grid0.N, _)

/-- Every tile of the result is some grid point's. -/
theorem idx_onto : ∀ (q0 : Fin 8) (q1 : Fin 4) (q2 : Fin 4), ∃ t : Fin cfg0.N, win0_2.index t = ![q0.val, q1.val, q2.val] :=
  (by decide +kernel : ∀ (q0 : Fin 8) (q1 : Fin 4) (q2 : Fin 4), ∃ t : Fin grid0.N, win0_2.index t = ![q0.val, q1.val, q2.val])

/-! ## What a grid point writes back -/

/-- WHAT POINT `t` WRITES BACK is tile `t` of `G` of the point array as the region finds it. -/
theorem flushed_eq (c : Dev nD) (t : Fin cfg0.N) :
    (dats m 0 c).flushed 2 t = ((cfg0.win 2).blk t).view.read (Elt Ideal) (G (V m c main_v0)) := by
  show (cfg0.win 2).cut (grid0.coords t) ((dats m 0 c).after 2 t) = _
  rw [after0_2]
  unfold outTile
  rw [View.canon_unit_zero hz3]
  simp only [View.ld_unit_zero (S := S1x256x1024) hz3]
  obtain ⟨e00, e01, e02, e10, e11, e12, eoff, b0, b1, b2⟩ := idx_facts t
  funext j
  obtain ⟨u, p, q, rfl⟩ : ∃ (u : Fin 1) (p q : Fin 1024), j = ix3 u p q := ⟨j 0, j 1, j 2, eq_ix3 j⟩
  obtain rfl : u = 0 := Subsingleton.elim _ _
  have hp := p.isLt
  have hq := q.isLt
  have hemb : ((cfg0.win 2).blk t).view.emb (ix3 (0 : Fin 1) p q)
      = ix3 (⟨win0_2.index t (0 : Fin 3), by omega⟩ : Fin 8) (⟨win0_2.index t (1 : Fin 3) * 1024 + p.val, by omega⟩ : Fin 4096)
          (⟨win0_2.index t (2 : Fin 3) * 1024 + q.val, by omega⟩ : Fin 4096) := by
    funext a; apply Fin.ext
    match a with
    | ⟨0, _⟩ => show win0_2.index t (0 : Fin 3) * 1 + 1 * 0 = win0_2.index t (0 : Fin 3); omega
    | ⟨1, _⟩ => show win0_2.index t (1 : Fin 3) * 1024 + 1 * p.val = win0_2.index t (1 : Fin 3) * 1024 + p.val; omega
    | ⟨2, _⟩ => show win0_2.index t (2 : Fin 3) * 1024 + 1 * q.val = win0_2.index t (2 : Fin 3) * 1024 + q.val; omega
  show k0_pay1 (F := Ideal) (iblk m c 0 t) (View.ld (iblk m c 1 t) (rCol (grid0.coords t))) (ix3 (0 : Fin 1) p q)
      = G (V m c main_v0) (((cfg0.win 2).blk t).view.emb (ix3 (0 : Fin 1) p q))
  rw [hemb, G_apply]
  refine tile_entry (V m c main_v0) (iblk m c 0 t) (iblk m c 1 t) (k0_off1 (grid0.coords t)) (k0_off1_inb (grid0.coords t))
    (win0_2.index t (2 : Fin 3)) eoff _ _ _ p q (by show win0_2.index t (2 : Fin 3) * 1024 + q.val = 1024 * win0_2.index t (2 : Fin 3) + q.val; omega) ?_ ?_
  · intro d
    show V m c main_v0 (((cfg0.win 0).blk t).view.emb (ix3 (0 : Fin 1) d p)) = _
    congr 1; funext a; apply Fin.ext
    match a with
    | ⟨0, _⟩ => show win0_0.index t (0 : Fin 3) * 1 + 1 * 0 = win0_2.index t (0 : Fin 3); omega
    | ⟨1, _⟩ => show win0_0.index t (1 : Fin 3) * 256 + 1 * d.val = d.val; omega
    | ⟨2, _⟩ => show win0_0.index t (2 : Fin 3) * 1024 + 1 * p.val = win0_2.index t (1 : Fin 3) * 1024 + p.val; omega
  · intro d e
    show V m c main_v0 (((cfg0.win 1).blk t).view.emb (ix3 (0 : Fin 1) d e)) = _
    congr 1; funext a; apply Fin.ext
    match a with
    | ⟨0, _⟩ => show win0_1.index t (0 : Fin 3) * 1 + 1 * 0 = win0_2.index t (0 : Fin 3); omega
    | ⟨1, _⟩ => show win0_1.index t (1 : Fin 3) * 256 + 1 * d.val = d.val; omega
    | ⟨2, _⟩ => show win0_1.index t (2 : Fin 3) * 4096 + 1 * e.val = e.val; omega

/-! ## The tiles cover the array -/

/-- An index of the result is in point `t`'s tile iff each coordinate is in the tile's range on its axis. -/
theorem mem_blk (t : Fin cfg0.N) (i : S8x4096x4096.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v1).slice (win0_2.rect t)).set ↔ _
  rw [View.set_slice_whole, Rect.mem_set_unit]
  exact Iff.rfl

/-- Every index of the result is in the tile of the point (its batch, its row / 1024, its column / 1024). -/
theorem cover (i : S8x4096x4096.Idx) : ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := idx_onto ⟨(i 0).val, hi0⟩ ⟨(i 1).val / 1024, by omega⟩ ⟨(i 2).val / 1024, by omega⟩
  have q0 : win0_2.index t (0 : Fin 3) = (i 0).val := congrFun ht 0
  have q1 : win0_2.index t (1 : Fin 3) = (i 1).val / 1024 := congrFun ht 1
  have q2 : win0_2.index t (2 : Fin 3) = (i 2).val / 1024 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE RESULT ARRAY after the run is `G` of the point array as the region finds it. -/
theorem final (c : Dev nD) : (dats m 0 c).arrAt 2 cfg0.N = G (V m c main_v0) :=
  (dats m 0 c).arrAt_eq_of_cover 2 (G (V m c main_v0)) (fun t _ => flushed_eq m c t) cover

/-! ## The point array is the reshaped input -/

theorem V_main_v0 (c : Dev nD) :
    (V m c main_v0 : S8x256x4096.Idx → EReal)
      = shapeCast S8x256x4096 (m ((c : Thread nD τ).loc main_arg0)) shapeCasts_S8x256x64x64_S8x256x4096 := by
  dsimp only [V, hostOps0]; after_results; rfl

/-! ## The run, read -/

/-- Every weakly fair execution of the idealized kernel's @main terminates with the result array at `G` of the reshaped
    input and the input unchanged. -/
theorem run : θ_run defs (onTc (τ := τ) (main (F := Ideal))) ⟨m, fun _ => 0, ρ⟩ fun r => ∀ c : Dev nD,
      r.2.mem ((c : Thread nD τ).loc main_v1)
        = G (shapeCast S8x256x4096 (m ((c : Thread nD τ).loc main_arg0)) shapeCasts_S8x256x64x64_S8x256x4096)
      ∧ r.2.mem ((c : Thread nD τ).loc main_arg0) = m ((c : Thread nD τ).loc main_arg0) :=
  (θ_run defs _ _).mono (fun r h c => ⟨(post_result m r h c).trans ((final m c).trans (congrArg G (V_main_v0 m c))),
      kept_main_arg0 m r h c⟩)
    (run_main m ρ)

end Cert.KernelIdeal.Whole

end
-- ==== Proof.RefDist.lean ====
/-
  The reference's result, read at an entry: the squared distance in the reference's arrangement.

  The reference reshapes the input to the point array y[b, k, n], transposes it to point-major, and computes the squared
  lengths (a sum over the coordinate, started from zero) and the batch of Gram matrices (a product contracting the
  coordinate). Entry (b, n, m) of its result is (|y_m|² + |y_n|²) − 2·⟨y_n, y_m⟩: the transposes only say which
  coordinate of the point array each factor is.
-/
import proofs.«171839_j14499809591877_2_alg».proof.Proof.Gen.ReferenceIdeal.Read
import proofs.«171839_j14499809591877_2_alg».proof.Proof.PairDist

noncomputable section

open scoped BigOperators

namespace Cert.ReferenceIdeal.RefDist

open Cert.ReferenceIdeal Cert.ReferenceIdeal.Read Idealize.ShloMosaic Idealize.ShloMosaic.ValueIdx Cert.PairDist

/-- Entry (b, n, m) of the reference's result is the reference's arrangement of the squared distance of points n and m
    of batch b of the reshaped input. -/
theorem ref_apply (x0 : (⟨S8x256x64x64, .f32⟩ : BufTy).Contents (Elt Ideal)) (b : Fin 8) (n m : Fin 4096) :
    val_main_v12 (F := Ideal) x0 (ix3 b n m) = distRef (val_main_v0 (F := Ideal) x0) b n m := by
  have e1 : ∀ k : Fin 256, idx_main_v1 (idx_main_v3 (idx_main_v5 (idx_main_v7 (ix3 b n m))) k) = ix3 b k m := fun k =>
    funext fun a => Fin.ext (by match a with | ⟨0, _⟩ => rfl | ⟨1, _⟩ => rfl | ⟨2, _⟩ => rfl)
  have e2 : ∀ k : Fin 256, idx_main_v1 (idx_main_v3 (idx_main_v6 (idx_main_v8 (ix3 b n m))) k) = ix3 b k n := fun k =>
    funext fun a => Fin.ext (by match a with | ⟨0, _⟩ => rfl | ⟨1, _⟩ => rfl | ⟨2, _⟩ => rfl)
  have e3 : ∀ k : Fin 256, idx_main_v1 (lidx_main_v4 (ix3 b n m) k) = ix3 b k n := fun k =>
    funext fun a => Fin.ext (by match a with | ⟨0, _⟩ => rfl | ⟨1, _⟩ => rfl | ⟨2, _⟩ => rfl)
  have e4 : ∀ k : Fin 256, idx_main_v1 (ridx_main_v4 (ix3 b n m) k) = ix3 b k m := fun k =>
    funext fun a => Fin.ext (by match a with | ⟨0, _⟩ => rfl | ⟨1, _⟩ => rfl | ⟨2, _⟩ => rfl)
  rw [val_main_v12_apply, val_main_v9_apply, val_main_v7_apply, val_main_v5_apply, val_main_v3_apply,
    val_main_v8_apply, val_main_v6_apply, val_main_v3_apply, val_main_v11_apply, val_main_v10_apply,
    val_main_cst_0_apply, val_main_v4_apply]
  simp only [val_main_v2_apply, val_main_v1_apply, val_main_cst_apply, e1, e2, e3, e4, Ideal.mulf_def, Ideal.addf_def,
    Ideal.subf_def, Ideal.ofBits_def]
  rfl

end Cert.ReferenceIdeal.RefDist

end
-- ==== Proof.FiniteInputs.lean ====
/-
  From the precondition to real entries.

  The precondition says that the absolute value of every entry of the input is below +inf. On the extended reals that
  leaves exactly the real numbers: at −inf and at +inf the absolute value is +inf.
-/
import proofs.«171839_j14499809591877_2_alg».proof.Pre_finite_inputs
import proofs.«171839_j14499809591877_2_alg».proof.Proof.Gen.Pre_finite_inputs
import proofs.«171839_j14499809591877_2_alg».proof.Proof.LibRealEntries
import Idealize.ShloMosaic.Lib.ReduceAll
import Idealize.ShloMosaic.Lib.ValueIdx
import Idealize.ShloMosaic.PureOps.Ideal

noncomputable section

namespace Cert.FiniteInputs

open Idealize.ShloMosaic RealEntries

instance : Subsingleton Cert.Pre_finite_inputs.S_.Idx := ⟨fun a b => funext fun d => d.elim0⟩

/-- The pattern 0x7F800000 denotes +inf. -/
theorem ofBits_inf : Ideal.ofBits .f32 0x7F800000#32 = ⊤ := by
  simp [Ideal.ofBits, Ideal.ieee]

/-- An array of which the precondition holds has real entries. -/
theorem real_of_pre (x : FVec Ideal Cert.Pre_finite_inputs.S8x256x64x64 .f32)
    (h : Cert.Pre_finite_inputs.fn (F := Ideal) x = fun _ => 1#1) (i : Cert.Pre_finite_inputs.S8x256x64x64.Idx) :
    IsReal (x i) := by
  have h0 := congrFun h ValueIdx.ix0
  dsimp only [Cert.Pre_finite_inputs.fn] at h0
  have hi := Host.reduce_andi_all _ _ _ _ _ h0 i
  have hi' : Ideal.cmp .olt (max (x i) (-(x i))) (Ideal.ofBits .f32 0x7F800000#32) = 1#1 := hi
  rw [ofBits_inf] at hi'
  generalize x i = z at hi' ⊢
  induction z using EReal.rec with
  | bot => simp [Ideal.cmp] at hi'
  | top => simp [Ideal.cmp] at hi'
  | coe r => exact ⟨r, rfl⟩

end Cert.FiniteInputs

end
-- ==== Proof.lean ====
/-
  The certificate of the pairwise squared-distance kernel against its jnp reference.

  Both programs reshape the input [8, 256, 64, 64] to the point array y[b, k, n] (batch, coordinate, point) and return,
  at (b, n, m), the squared distance |y_n|² + |y_m|² − 2⟨y_n, y_m⟩ of points n and m of batch b. The kernel tiles the
  result 1024 x 1024 and computes each entry as (Σ_k (y_kn·(−2))·y_km + Σ_k y_kn²) + Σ_k y_km², the narrowing of the
  product's operands being the identity on exact numbers; the reference computes (Σ_k y_km² + Σ_k y_kn²) − 2·Σ_k y_kn·y_km.
  For real entries — which is what the precondition says of the input — the two are one number: the factor −2 moves
  out of the finite sum.

  The three frames: the two kernel programs hand ONE array to two input windows, so their frame run deals that
  array's full share between the two windows; the reference is a straight line of host operations. No operation of the
  kernel was rewritten for the exact reading, so the sanctioned-idealization claim is the trivial one.
-/
import proofs.«171839_j14499809591877_2_alg».proof.Defs
import proofs.«171839_j14499809591877_2_alg».proof.Proof.Gen.Kernel
import proofs.«171839_j14499809591877_2_alg».proof.Proof.Gen.KernelIdeal
import proofs.«171839_j14499809591877_2_alg».proof.Proof.Gen.ReferenceIdeal
import proofs.«171839_j14499809591877_2_alg».proof.Proof.Gen.ReferenceIdeal.Read
import proofs.«171839_j14499809591877_2_alg».proof.Proof.Gen.Pre_finite_inputs
import proofs.«171839_j14499809591877_2_alg».proof.Proof.FrameBits
import proofs.«171839_j14499809591877_2_alg».proof.Proof.FrameIdeal
import proofs.«171839_j14499809591877_2_alg».proof.Proof.KernelValue
import proofs.«171839_j14499809591877_2_alg».proof.Proof.RefDist
import proofs.«171839_j14499809591877_2_alg».proof.Proof.FiniteInputs
import proofs.«171839_j14499809591877_2_alg».proof.Proof.PairDist
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Shared.frame m ρ

theorem frame_ki : Cert.frame_KernelIdeal := fun m ρ _ => Cert.KernelIdeal.Shared.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The two results agree entry by entry: the kernel's array is the squared distance with −2 inside the inner sum, the
    reference's the two squared lengths less twice the inner product, of one point array with real entries. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v12_eq _).trans ?_
  rw [hagree c]
  funext i
  obtain ⟨b, n, k, rfl⟩ : ∃ (b : Fin 8) (n k : Fin 4096), i = ix3 b n k := ⟨i 0, i 1, i 2, eq_ix3 i⟩
  rw [Cert.ReferenceIdeal.RefDist.ref_apply]
  refine (Cert.PairDist.dist_eq_distRef _ (fun j => ?_) b n k).symm
  rw [Cert.ReferenceIdeal.Read.val_main_v0_apply]
  exact Cert.FiniteInputs.real_of_pre _ (hpre c) _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
